-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x600000 32) (main_arg2 : FVec F S600000 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S5000x128 : Shape := ⟨2, ![5000, 128]⟩
abbrev S5000x1 : Shape := ⟨2, ![5000, 1]⟩
abbrev S650000x128 : Shape := ⟨2, ![650000, 128]⟩
abbrev S1x128 : Shape := ⟨2, ![1, 128]⟩

abbrev nBuf : Space → Nat
  | .hbm => 51
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S50000, .i32⟩
  | .hbm, ⟨6, _⟩ => ⟨S1x600000, .i32⟩
  | .hbm, ⟨7, _⟩ => ⟨S600000, .i32⟩
  | .hbm, ⟨8, _⟩ => ⟨S650000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S_, .f32⟩
  | .hbm, ⟨13, _⟩ => ⟨S50000, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .bf16⟩
  | .hbm, ⟨31, _⟩ => ⟨S_, .i32⟩
  | .hbm, ⟨32, _⟩ => ⟨S650000, .i32⟩
  | .hbm, ⟨33, _⟩ => ⟨S650000, .i1⟩
  | .hbm, ⟨34, _⟩ => ⟨S_, .i32⟩
  | .hbm, ⟨35, _⟩ => ⟨S650000, .i32⟩
  | .hbm, ⟨36, _⟩ => ⟨S650000, .i32⟩
  | .hbm, ⟨37, _⟩ => ⟨S650000, .i32⟩
  | .hbm, ⟨38, _⟩ => ⟨S650000x1, .i32⟩
  | .hbm, ⟨39, _⟩ => ⟨S650000x128, .bf16⟩
  | .hbm, ⟨40, _⟩ => ⟨S650000x128, .f32⟩
  | .hbm, ⟨41, _⟩ => ⟨S650000x1, .f32⟩
  | .hbm, ⟨42, _⟩ => ⟨S650000x128, .f32⟩
  | .hbm, ⟨43, _⟩ => ⟨S650000x128, .f32⟩
  | .hbm, ⟨44, _⟩ => ⟨S_, .f32⟩
  | .hbm, ⟨45, _⟩ => ⟨S50000x128, .f32⟩
  | .hbm, ⟨46, _⟩ => ⟨S650000x1, .i32⟩
  | .hbm, ⟨47, _⟩ => ⟨S50000x128, .f32⟩
  | .hbm, ⟨48, _⟩ => ⟨S1x128, .f32⟩
  | .hbm, ⟨49, _⟩ => ⟨S50000x1, .f32⟩
  | .hbm, ⟨50, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S650000x1_S650000_n_0_0_1_wf : ScatterDims.WF S50000 S650000x1 S650000 [] [0] [0] 1
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S50000, .i32⟩
  | .hbm, ⟨6, _⟩ => ⟨S1x600000, .i32⟩
  | .hbm, ⟨7, _⟩ => ⟨S600000, .i32⟩
  | .hbm, ⟨8, _⟩ => ⟨S650000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S_, .f32⟩
  | .hbm, ⟨13, _⟩ => ⟨S50000, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S650000, .i32⟩
  | .hbm, ⟨28, _⟩ => ⟨S650000, .i1⟩
  | .hbm, ⟨29, _⟩ => ⟨S_, .i32⟩
  | .hbm, ⟨30, _⟩ => ⟨S650000, .i32⟩
  | .hbm, ⟨31, _⟩ => ⟨S650000, .i32⟩
  | .hbm, ⟨32, _⟩ => ⟨S650000, .i32⟩
  | .hbm, ⟨33, _⟩ => ⟨S650000x1, .i32⟩
  | .hbm, ⟨34, _⟩ => ⟨S650000, .f32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S50000x128, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x1, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S50000x128, .f32⟩
  | .hbm, ⟨61, _⟩ => ⟨S650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call1_cst : Ref sig .tc := ⟨.hbm, 66, rfl⟩
abbrev main_call1_v0 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.KernelRun.lean ====
/-
  The whole run of the idealized kernel program, with its result named.

  The program is six segments: three stretches of array operations (the index and weight vectors, the degrees and
  the normalising column), the first pipelined call (the scaled product), a fourth stretch (the gathered, weighted
  and summed messages), and the second pipelined call (the scaling, the bias and the cut-off at zero).  Every
  weakly fair execution runs through them in order and terminates; the contents of every array at each boundary
  are the fold `W0` … `W6` of the segments over the launch memory, and the final memory holds `W6` everywhere.
  So the result array ends holding `W6` at its own reference, and the five argument arrays end as launched.
-/
import proofs.«164977_j7000796693164_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds the last
    boundary's contents `W6` at its reference, and the argument arrays are as launched. -/
theorem run : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Whole

end
-- ==== Proof.KernelTerms.lean ====
/-
  The kernel program's array operations between its two pipelined calls, as named whole-array terms.

  `normCol` is the normalising factor of every node from the vector of degrees: the degree is first cut off below at
  zero, then 1/sqrt where that is positive and 0 elsewhere.  `wrapRows` turns a vector of possibly negative row
  numbers into the words a gather reads (a negative number has the number of rows added).  `messages` is, for every
  message e, the source row of the scaled feature matrix times the message's weight; `aggregate` adds every message
  into the row its target names, starting from zero.
-/
import proofs.«164977_j7000796693164_2_alg».proof.Proof.Gen.KernelIdeal
import Idealize.ShloMosaic.PureOps.Ideal

noncomputable section

namespace Cert.KernelIdeal.Terms

open Cert.KernelIdeal Cert.KernelIdeal.Gen Idealize.ShloMosaic

/-- The vector of zeros, one per node. -/
def zeroN : FVec Ideal S50000 .f32 := broadcastInDim S50000 ![] bcast_S_S50000 (constant (F := Ideal) S_ .f32 0x00000000#32)

/-- 1/sqrt of the degree cut off below at zero, where that is positive; 0 elsewhere. -/
def normCol (deg : FVec Ideal S50000 .f32) : FVec Ideal S50000 .f32 :=
  select (cmpf .ogt (maximumf deg zeroN) zeroN) (Host.rsqrt (F := Ideal) (maximumf deg zeroN)) zeroN

/-- Row numbers as a gather reads them: a negative one has the number of rows added. -/
def wrapRows (s : IVec S650000 32) : IVec S650000 32 :=
  select (cmpi .slt s (broadcastInDim S650000 ![] bcast_S_S650000 (constantI S_ 32 0#32)))
    (addi s (broadcastInDim S650000 ![] bcast_S_S650000 (constantI S_ 32 50000#32))) s

/-- A vector of row numbers as a column of start indices. -/
def asCol (s : IVec S650000 32) : IVec S650000x1 32 := broadcastInDim S650000x1 ![0] bcast_S650000_S650000x1_0 s

/-- For every message, its source row of the scaled features times its weight. -/
def messages (h : FVec Ideal S50000x128 .bf16) (s : IVec S650000 32) (e : FVec Ideal S650000 .f32) : FVec Ideal S650000x128 .f32 :=
  mulf (extf .f32 (Host.gather gather_S50000x128_S650000x1_S650000x128_1_0_n_n_0_1_1128 h (asCol (wrapRows s))) bitsLt_bf16_f32)
    (broadcastInDim S650000x128 ![0, 1] bcast_S650000x1_S650000x128_0_1
      (broadcastInDim S650000x1 ![0] bcast_S650000_S650000x1_0 e))

/-- Every message added into the row its target names, from zero. -/
def aggregate (h : FVec Ideal S50000x128 .bf16) (s d : IVec S650000 32) (e : FVec Ideal S650000 .f32) : FVec Ideal S50000x128 .f32 :=
  Host.scatterAdd scatter_S50000x128_S650000x1_S650000x128_1_0_0_1
    (broadcastInDim S50000x128 ![] bcast_S_S50000x128 (constant (F := Ideal) S_ .f32 0x00000000#32))
    (asCol d) (messages h s e)

end Cert.KernelIdeal.Terms

end
-- ==== Proof.KernelHost.lean ====
/-
  What the kernel program's array operations leave in the arrays the two pipelined calls read.

  Before the first call: the source and target vectors of the messages (the edges' two rows followed by one self
  loop per node), the weights (the edge weights followed by ones), and the normalising factor of every node, also as
  a column.  Between the calls: the aggregated messages, the bias as a row, and the normalising column again.  Each
  is the composed term of the operations that write it, over the argument arrays; the source and target vectors,
  the weights and the degrees are the very terms the reference program computes.
-/
import proofs.«164977_j7000796693164_2_alg».proof.Proof.Gen.KernelIdeal.Frame
import proofs.«164977_j7000796693164_2_alg».proof.Proof.Gen.ReferenceIdeal.Read
import proofs.«164977_j7000796693164_2_alg».proof.Proof.KernelTerms
import Idealize.ShloMosaic.Lib.StableHlo.Run

set_option maxRecDepth 16384

noncomputable section

namespace Cert.KernelIdeal.HostValues

open Cert.KernelIdeal Cert.KernelIdeal.Gen Cert.KernelIdeal.Terms
open Idealize.ShloMosaic Idealize.ShloMosaic.TcCoe Idealize.SL.Sem Idealize.ShloMosaic.StableHlo
open Cert.ReferenceIdeal.Read (val_main_v3 val_main_v6 val_main_v8 val_main_v11)

variable (m : (ℓ : Loc nD τ sig) → Buf (Elt Ideal) ℓ) (ρ : Dev nD → PrngReg)

/-! ## Before the first call -/

theorem w3_arg0 (c : Dev nD) : W3 m ρ c (Proc.devRef .tc main_arg0) = m ((c : Thread nD τ).loc main_arg0) := by
  dsimp only [W3, W2, W1, W0, hostOps0, hostOps0_1, hostOps0_2]
  after_results

theorem w3_arg3 (c : Dev nD) : W3 m ρ c (Proc.devRef .tc main_arg3) = m ((c : Thread nD τ).loc main_arg3) := by
  dsimp only [W3, W2, W1, W0, hostOps0, hostOps0_1, hostOps0_2]
  after_results

theorem w3_arg4 (c : Dev nD) : W3 m ρ c (Proc.devRef .tc main_arg4) = m ((c : Thread nD τ).loc main_arg4) := by
  dsimp only [W3, W2, W1, W0, hostOps0, hostOps0_1, hostOps0_2]
  after_results

/-- The messages' sources. -/
theorem w3_v3 (c : Dev nD) : (W3 m ρ c (Proc.devRef .tc main_v3) : S650000.Idx → BitVec 32)
    = val_main_v3 (F := Ideal) (m ((c : Thread nD τ).loc main_arg1)) := by
  dsimp only [W3, W2, W1, W0, hostOps0, hostOps0_1, hostOps0_2]
  after_results
  rfl

/-- The messages' targets. -/
theorem w3_v6 (c : Dev nD) : (W3 m ρ c (Proc.devRef .tc main_v6) : S650000.Idx → BitVec 32)
    = val_main_v6 (F := Ideal) (m ((c : Thread nD τ).loc main_arg1)) := by
  dsimp only [W3, W2, W1, W0, hostOps0, hostOps0_1, hostOps0_2]
  after_results
  rfl

/-- The messages' weights. -/
theorem w3_v8 (c : Dev nD) : (W3 m ρ c (Proc.devRef .tc main_v8) : S650000.Idx → EReal)
    = val_main_v8 (F := Ideal) (m ((c : Thread nD τ).loc main_arg2)) := by
  dsimp only [W3, W2, W1, W0, hostOps0, hostOps0_1, hostOps0_2]
  after_results
  rfl

/-- The outlined select between two vectors, over any contents of the buffers it reads. -/
theorem where_line (V : Valuation τ sig (Elt Ideal)) :
    (after hostOps0_1 V (Proc.devRef .tc main_v18) : S50000.Idx → EReal)
      = select (V (Proc.devRef .tc main_v15)) (V (Proc.devRef .tc main_v16)) (V (Proc.devRef .tc main_v17)) := by
  dsimp only [hostOps0_1]
  after_results
  rfl

/-- The reshape of a vector into a column, over any contents; it leaves the vector itself alone. -/
theorem column_line (V : Valuation τ sig (Elt Ideal)) :
    (after hostOps0_2 V (Proc.devRef .tc main_v19) : S50000x1.Idx → EReal)
      = shapeCast S50000x1 (V (Proc.devRef .tc main_v18) : S50000.Idx → EReal) shapeCasts_S50000_S50000x1 := by
  dsimp only [hostOps0_2]
  after_results
  rfl
theorem column_line_keeps (V : Valuation τ sig (Elt Ideal)) :
    after hostOps0_2 V (Proc.devRef .tc main_v18) = V (Proc.devRef .tc main_v18) := by
  dsimp only [hostOps0_2]
  after_results

/-- The comparison "degree above zero", the reciprocal square root and the zeros the select reads. -/
theorem w1_v15 (c : Dev nD) : (W1 m ρ c (Proc.devRef .tc main_v15) : S50000.Idx → BitVec 1)
    = cmpf .ogt (maximumf (val_main_v11 (F := Ideal) (m ((c : Thread nD τ).loc main_arg1)) (m ((c : Thread nD τ).loc main_arg2))) zeroN) zeroN := by
  dsimp only [W1, W0, hostOps0]
  after_results
  rfl
theorem w1_v16 (c : Dev nD) : (W1 m ρ c (Proc.devRef .tc main_v16) : S50000.Idx → EReal)
    = Host.rsqrt (F := Ideal) (maximumf (val_main_v11 (F := Ideal) (m ((c : Thread nD τ).loc main_arg1)) (m ((c : Thread nD τ).loc main_arg2))) zeroN) := by
  dsimp only [W1, W0, hostOps0]
  after_results
  rfl
theorem w1_v17 (c : Dev nD) : (W1 m ρ c (Proc.devRef .tc main_v17) : S50000.Idx → EReal) = zeroN := by
  dsimp only [W1, W0, hostOps0]
  after_results
  rfl

/-- The nodes' normalising factors, from the degrees. -/
theorem w3_v18 (c : Dev nD) : (W3 m ρ c (Proc.devRef .tc main_v18) : S50000.Idx → EReal)
    = normCol (val_main_v11 (F := Ideal) (m ((c : Thread nD τ).loc main_arg1)) (m ((c : Thread nD τ).loc main_arg2))) :=
  (column_line_keeps (W2 m ρ c)).trans ((where_line (W1 m ρ c)).trans (by
    rw [w1_v15, w1_v16, w1_v17]
    rfl))

/-- The same as a column. -/
theorem w3_v19 (c : Dev nD) : (W3 m ρ c (Proc.devRef .tc main_v19) : S50000x1.Idx → EReal)
    = shapeCast S50000x1 (normCol (val_main_v11 (F := Ideal) (m ((c : Thread nD τ).loc main_arg1)) (m ((c : Thread nD τ).loc main_arg2))))
        shapeCasts_S50000_S50000x1 :=
  (column_line (W2 m ρ c)).trans (by
    rw [show (W2 m ρ c (Proc.devRef .tc main_v18) : S50000.Idx → EReal)
        = normCol (val_main_v11 (F := Ideal) (m ((c : Thread nD τ).loc main_arg1)) (m ((c : Thread nD τ).loc main_arg2))) from
      (where_line (W1 m ρ c)).trans (by rw [w1_v15, w1_v16, w1_v17]; rfl)])

/-! ## Between the calls: over whatever the first call leaves (`W4`) -/

set_option maxHeartbeats 2000000 in
/-- The aggregated messages. -/
theorem w5_v34 (c : Dev nD) : (W5 m ρ c (Proc.devRef .tc main_v34) : S50000x128.Idx → EReal)
    = aggregate (W4 m ρ c (Proc.devRef .tc main_v20)) (W4 m ρ c (Proc.devRef .tc main_v3))
        (W4 m ρ c (Proc.devRef .tc main_v6)) (W4 m ρ c (Proc.devRef .tc main_v8)) := by
  dsimp only [W5, hostOps1]
  after_results_simp
  rfl

/-- The bias as a row. -/
theorem w5_v35 (c : Dev nD) : (W5 m ρ c (Proc.devRef .tc main_v35) : S1x128.Idx → EReal)
    = shapeCast S1x128 (W4 m ρ c (Proc.devRef .tc main_arg4) : S128.Idx → EReal) shapeCasts_S128_S1x128 := by
  dsimp only [W5, hostOps1]
  after_results
  rfl

/-- The normalising column. -/
theorem w5_v36 (c : Dev nD) : (W5 m ρ c (Proc.devRef .tc main_v36) : S50000x1.Idx → EReal)
    = shapeCast S50000x1 (W4 m ρ c (Proc.devRef .tc main_v18) : S50000.Idx → EReal) shapeCasts_S50000_S50000x1 := by
  dsimp only [W5, hostOps1]
  after_results
  rfl

/-- An array the first call does not write is, after it, as before it. -/
theorem w4_v3 (c : Dev nD) : W4 m ρ c (Proc.devRef .tc main_v3) = W3 m ρ c (Proc.devRef .tc main_v3) := W4_of_ne m ρ c main_v3 (by decide)
theorem w4_v6 (c : Dev nD) : W4 m ρ c (Proc.devRef .tc main_v6) = W3 m ρ c (Proc.devRef .tc main_v6) := W4_of_ne m ρ c main_v6 (by decide)
theorem w4_v8 (c : Dev nD) : W4 m ρ c (Proc.devRef .tc main_v8) = W3 m ρ c (Proc.devRef .tc main_v8) := W4_of_ne m ρ c main_v8 (by decide)
theorem w4_v18 (c : Dev nD) : W4 m ρ c (Proc.devRef .tc main_v18) = W3 m ρ c (Proc.devRef .tc main_v18) := W4_of_ne m ρ c main_v18 (by decide)
theorem w4_arg4 (c : Dev nD) : W4 m ρ c (Proc.devRef .tc main_arg4) = W3 m ρ c (Proc.devRef .tc main_arg4) := W4_of_ne m ρ c main_arg4 (by decide)

end Cert.KernelIdeal.HostValues

end
-- ==== Proof.Spec.lean ====
/-
  One layer of a graph convolution with symmetric degree normalisation, as whole-array functions.

  Nodes are numbered below 50000 and carry 128 features; there are 650000 messages (the edges and one self
  loop per node).  A message e has a source row, a weight ew e, and a target; the degree of a node is the sum
  of the weights of the messages that land on it, and dinv is 1/sqrt(degree) where the degree is positive and
  0 elsewhere.  The layer is  out[p, c] = max(Σ_{e lands on p} dinv[src e] · ew e · dinv[p] · (x·W)[src e, c] + b[c], 0).

  Two whole-array functions are named here because one side of the comparison computes them block by block:
  the product x·W with row n scaled by the n-th entry of a column (`scaledProduct`), and a matrix scaled the same
  way, shifted by a row and cut off below at zero (`scaleBiasRelu`).
-/
import Idealize.ShloMosaic.PureOps.Ideal
import Idealize.ShloMosaic.Lib.ValueIdx

noncomputable section

open scoped BigOperators

namespace Cert.Gcn

open Idealize.ShloMosaic Idealize.ShloMosaic.ValueIdx

/-- Entry (p, c) of x·W: the sum over k of x[p, k] · W[k, c]. -/
def hmat (x : FVec Ideal ⟨2, ![50000, 128]⟩ .f32) (w : FVec Ideal ⟨2, ![128, 128]⟩ .f32) (p : Fin 50000) (c : Fin 128) : EReal :=
  ∑ k : Fin 128, x (ix2 p k) * w (ix2 k c)

/-- x·W with row n scaled by the n-th entry of the column d. -/
def scaledProduct (x : FVec Ideal ⟨2, ![50000, 128]⟩ .f32) (w : FVec Ideal ⟨2, ![128, 128]⟩ .f32)
    (d : FVec Ideal ⟨2, ![50000, 1]⟩ .f32) : FVec Ideal ⟨2, ![50000, 128]⟩ .bf16 :=
  fun i => hmat x w (i 0) (i 1) * d (ix2 (i 0) (0 : Fin 1))

theorem scaledProduct_apply (x : FVec Ideal ⟨2, ![50000, 128]⟩ .f32) (w : FVec Ideal ⟨2, ![128, 128]⟩ .f32)
    (d : FVec Ideal ⟨2, ![50000, 1]⟩ .f32) (p : Fin 50000) (c : Fin 128) :
    scaledProduct x w d (ix2 p c) = hmat x w p c * d (ix2 p (0 : Fin 1)) := rfl

/-- Row n of a scaled by the n-th entry of the column d, plus the row r, cut off below at zero. -/
def scaleBiasRelu (a : FVec Ideal ⟨2, ![50000, 128]⟩ .f32) (d : FVec Ideal ⟨2, ![50000, 1]⟩ .f32)
    (r : FVec Ideal ⟨2, ![1, 128]⟩ .f32) : FVec Ideal ⟨2, ![50000, 128]⟩ .f32 :=
  fun i => max (a i * d (ix2 (i 0) (0 : Fin 1)) + r (ix2 (0 : Fin 1) (i 1))) 0

theorem scaleBiasRelu_apply (a : FVec Ideal ⟨2, ![50000, 128]⟩ .f32) (d : FVec Ideal ⟨2, ![50000, 1]⟩ .f32)
    (r : FVec Ideal ⟨2, ![1, 128]⟩ .f32) (p : Fin 50000) (c : Fin 128) :
    scaleBiasRelu a d r (ix2 p c) = max (a (ix2 p c) * d (ix2 p (0 : Fin 1)) + r (ix2 (0 : Fin 1) c)) 0 := rfl

end Cert.Gcn

end
-- ==== Proof.KernelOut.lean ====
/-
  The kernel program's result as one function of the five argument arrays.

  The normalising column comes from the degrees; the first pipelined call leaves the product x·W with every row scaled
  by its node's factor; the messages gather rows of that, weight them and are summed per target; the second pipelined
  call scales every row of the sums by its node's factor, adds the bias and cuts off below at zero.
-/
import proofs.«164977_j7000796693164_2_alg».proof.Proof.KernelTerms
import proofs.«164977_j7000796693164_2_alg».proof.Proof.Spec
import proofs.«164977_j7000796693164_2_alg».proof.Proof.Gen.ReferenceIdeal.Read

noncomputable section

namespace Cert.KernelIdeal.Out

open Cert.KernelIdeal Cert.KernelIdeal.Gen Cert.KernelIdeal.Terms Idealize.ShloMosaic
open Cert.ReferenceIdeal.Read (val_main_v3 val_main_v6 val_main_v8 val_main_v11)

/-- The normalising column, from the edge list and the edge weights. -/
def normColumn (x1 : IVec S2x600000 32) (x2 : FVec Ideal S600000 .f32) : FVec Ideal S50000x1 .f32 :=
  shapeCast S50000x1 (normCol (val_main_v11 (F := Ideal) x1 x2)) shapeCasts_S50000_S50000x1

/-- The result array of the kernel program. -/
def kernelOut (x0 : FVec Ideal S50000x128 .f32) (x1 : IVec S2x600000 32) (x2 : FVec Ideal S600000 .f32)
    (x3 : FVec Ideal S128x128 .f32) (x4 : FVec Ideal S128 .f32) : FVec Ideal S50000x128 .f32 :=
  Cert.Gcn.scaleBiasRelu
    (aggregate (Cert.Gcn.scaledProduct x0 x3 (normColumn x1 x2)) (val_main_v3 (F := Ideal) x1) (val_main_v6 (F := Ideal) x1)
      (val_main_v8 (F := Ideal) x2))
    (normColumn x1 x2) (shapeCast S1x128 x4 shapeCasts_S128_S1x128)

end Cert.KernelIdeal.Out

end
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.RegionPayload.lean ====
/-
  The arithmetic of the two kernel bodies, read at one entry of a block.

  The first body takes a block of 5000 rows of x, the whole of W and the matching 5000 entries of a
  column d, and stores, at row p and column q, the sum over k of x[p, k] · W[k, q] times d[p]: the
  changes of float format are the identity on extended reals, the product into the zero accumulator is
  the plain sum, and the column is broadcast over the 128 columns.  The second body takes a block of
  5000 rows of a matrix a, the matching entries of a column d and a row r, and stores at (p, q) the
  larger of a[p, q] · d[p] + r[q] and zero.
-/
import proofs.«164977_j7000796693164_2_alg».proof.Proof.Gen.KernelIdeal.Skeleton
import proofs.«164977_j7000796693164_2_alg».proof.Proof.LibLayout
import proofs.«164977_j7000796693164_2_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionPayload

open Cert.KernelIdeal Cert.KernelIdeal.Gen Idealize.ShloMosaic Idealize.ShloMosaic.ValueIdx

/-- The zero offsets of a whole-block access, as the constant function. -/
theorem zero_offsets : (![0, 0] : Fin 2 → Nat) = fun _ => 0 := funext fun a => by fin_cases a <;> rfl

/-! ## The product's dimension numbers: rows × inner times inner × columns -/

theorem dot_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem dot_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem dot_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem dot_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The two bodies at an entry -/

/-- The first body's stored value at row `p`, column `q` of the block: the inner product of row `p` of the
    first operand with column `q` of the second, times entry `p` of the column. -/
theorem pay0_apply (x0 : Vec Ideal S5000x128 .f32) (x1 : Vec Ideal S128x128 .f32) (x2 : Vec Ideal S5000x1 .f32)
    (p : Fin 5000) (q : Fin 128) :
    k0_pay1 (F := Ideal) x0 x1 x2 (ix2 p q)
      = (∑ k : Fin 128, x0 (ix2 p k) * x1 (ix2 k q)) * x2 (ix2 p (0 : Fin 1)) := by
  unfold k0_pay1
  show FloatOps.matmul dot_S5000x128_S128x128_S5000x128_1_0_0_1_n_n none
        (truncf .bf16 x0 bitsLt_bf16_f32 : FVec Ideal S5000x128 .bf16) (truncf .bf16 x1 bitsLt_bf16_f32 : FVec Ideal S128x128 .bf16)
        (constant (F := Ideal) S5000x128 .f32 0x00000000#32) (ix2 p q)
      * broadcastTo S5000x128 (shapeCast S5000x1 x2 shapeCasts_S5000x1_S5000x1) broadcasts_S5000x1_S5000x128 (ix2 p q) = _
  rw [LibLayout.broadcastTo_a1_ab_apply, shapeCast_self,
    LibDense.matmul_zero_apply dot_S5000x128_S128x128_S5000x128_1_0_0_1_n_n rfl rfl dot_lhs0 dot_lhs1 dot_rhs0 dot_rhs1]
  rfl

/-- The second body's stored value at row `p`, column `q` of the block: the matrix's entry scaled by entry
    `p` of the column, shifted by entry `q` of the row, and cut off below at zero. -/
theorem pay1_apply (x0 : Vec Ideal S5000x128 .f32) (x1 : Vec Ideal S5000x1 .f32) (x2 : Vec Ideal S1x128 .f32)
    (p : Fin 5000) (q : Fin 128) :
    k1_pay1 (F := Ideal) x0 x1 x2 (ix2 p q)
      = max (x0 (ix2 p q) * x1 (ix2 p (0 : Fin 1)) + x2 (ix2 (0 : Fin 1) q)) 0 := by
  unfold k1_pay1
  show max (shapeCast S5000x128 x0 shapeCasts_S5000x128_S5000x128 (ix2 p q)
        * broadcastTo S5000x128 (shapeCast S5000x1 x1 shapeCasts_S5000x1_S5000x1) broadcasts_S5000x1_S5000x128 (ix2 p q)
        + broadcastTo S5000x128 (shapeCast S1x128 x2 shapeCasts_S1x128_S1x128) broadcasts_S1x128_S5000x128 (ix2 p q))
      (Ideal.ofBits .f32 0x00000000#32) = _
  rw [LibLayout.broadcastTo_a1_ab_apply, broadcastTo_1b_ab_apply, shapeCast_self, shapeCast_self, shapeCast_self,
    Ideal.ofBits_zero_f32]

end Cert.KernelIdeal.RegionPayload

end
-- ==== Proof.Region0Value.lean ====
/-
  The first pipelined call as one function of the arrays it finds.

  The call runs over ten grid points.  At point t it reads rows 5000·t … 5000·t + 4999 of x, all of W, and
  the same rows of the column d, and writes back those rows of its result.  Each written row p of the block
  is row 5000·t + p of the whole-array function "x·W with row n scaled by d[n]"; the ten blocks tile the
  50000 rows (row r lies in the block of point r / 5000), so the result array ends holding that function.
-/
import proofs.«164977_j7000796693164_2_alg».proof.Proof.Gen.KernelIdeal.Frame
import proofs.«164977_j7000796693164_2_alg».proof.Proof.Spec
import proofs.«164977_j7000796693164_2_alg».proof.Proof.RegionPayload
import Idealize.ShloMosaic.Lib.Pipeline.Value
import Idealize.ShloMosaic.Lib.ValueIdx

noncomputable section

open scoped BigOperators

namespace Cert.KernelIdeal.RegionValues

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices of the four windows at grid point `t`: the row-blocked ones sit at block row `t`,
    column block 0; the whole-array one at block (0, 0). -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (p, k) of the block of x at point `t` is x at row 5000·t + p. -/
theorem xblock0_apply (c : Dev nD) (t : Fin cfg0.N) (p : Fin 5000) (k : Fin 128) (r : Fin 50000)
    (hr : r.val = t.val * 5000 + p.val) :
    (iblk0 V c 0 t : Vec Ideal S5000x128 .f32) (ix2 p k) = (V c main_arg0 : S50000x128.Idx → EReal) (ix2 r k) := by
  obtain ⟨e0, e1, -⟩ := block_index0 t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- The block of W at any point is W. -/
theorem wblock0_apply (c : Dev nD) (t : Fin cfg0.N) (k : Fin 128) (q : Fin 128) :
    (iblk0 V c 1 t : Vec Ideal S128x128 .f32) (ix2 k q) = (V c main_arg3 : S128x128.Idx → EReal) (ix2 k q) := by
  obtain ⟨-, -, e0, e1, -⟩ := block_index0 t
  unfold iblk0
  rw [View.read_apply]
  show V c main_arg3 _ = V c main_arg3 _
  refine congrArg (V c main_arg3) ?_
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- Entry p of the block of the column at point `t` is the column's entry 5000·t + p. -/
theorem dblock0_apply (c : Dev nD) (t : Fin cfg0.N) (p : Fin 5000) (r : Fin 50000)
    (hr : r.val = t.val * 5000 + p.val) :
    (iblk0 V c 2 t : Vec Ideal S5000x1 .f32) (ix2 p (0 : Fin 1)) = (V c main_v19 : S50000x1.Idx → EReal) (ix2 r (0 : Fin 1)) := by
  obtain ⟨-, -, -, -, e0, e1, -⟩ := block_index0 t
  unfold iblk0
  rw [View.read_apply]
  show V c main_v19 _ = V c main_v19 _
  refine congrArg (V c main_v19) ?_
  funext a
  apply Fin.ext
  match a with
  | ⟨0, _⟩ => show win0_2.index t (0 : Fin 2) * 5000 + 1 * p.val = r.val; omega
  | ⟨1, _⟩ => show win0_2.index t (1 : Fin 2) * 1 + 1 * 0 = 0; omega

/-- Entry (p, q) of the result's block at point `t` sits in the result array at row 5000·t + p, column q. -/
theorem oblock0_emb (t : Fin cfg0.N) (p : Fin 5000) (q : Fin 128) (r : Fin 50000)
    (hr : r.val = t.val * 5000 + p.val) :
    (((cfg0.win 3).blk t).view.emb (ix2 p q) : S50000x128.Idx) = ix2 r q := by
  obtain ⟨-, -, -, -, -, -, e0, e1⟩ := block_index0 t
  funext a
  apply Fin.ext
  match a with
  | ⟨0, _⟩ => show win0_3.index t (0 : Fin 2) * 5000 + 1 * p.val = r.val; omega
  | ⟨1, _⟩ => show win0_3.index t (1 : Fin 2) * 128 + 1 * q.val = q.val; omega

/-- What the body stores at (p, q) at point `t` is the scaled product at the array index of that entry. -/
theorem stored0_apply (c : Dev nD) (t : Fin cfg0.N) (p : Fin 5000) (q : Fin 128) :
    k0_pay1 (F := Ideal) (iblk0 V c 0 t) (iblk0 V c 1 t) (iblk0 V c 2 t) (ix2 p q)
      = Cert.Gcn.scaledProduct (V c main_arg0) (V c main_arg3) (V c main_v19) (((cfg0.win 3).blk t).view.emb (ix2 p q)) := by
  have hN : cfg0.N = 10 := N_0
  have ht : t.val < 10 := by have := t.isLt; omega
  have hp : p.val < 5000 := p.isLt
  have hr : t.val * 5000 + p.val < 50000 := by omega
  refine (RegionPayload.pay0_apply (iblk0 V c 0 t) (iblk0 V c 1 t) (iblk0 V c 2 t) p q).trans ?_
  rw [oblock0_emb t p q ⟨t.val * 5000 + p.val, hr⟩ rfl, Cert.Gcn.scaledProduct_apply]
  unfold Cert.Gcn.hmat
  rw [dblock0_apply V c t p ⟨t.val * 5000 + p.val, hr⟩ rfl]
  refine congrArg (· * _) (Finset.sum_congr rfl fun k _ => ?_)
  rw [xblock0_apply V c t p k ⟨t.val * 5000 + p.val, hr⟩ rfl, wblock0_apply V c t k q]

/-- What point `t` writes back is its block of the scaled product of the arrays the call finds. -/
theorem flushed0_eq (c : Dev nD) (t : Fin cfg0.N) :
    (dat0 V c).flushed 3 t = ((cfg0.win 3).blk t).view.read (Elt Ideal)
      (Cert.Gcn.scaledProduct (V c main_arg0) (V c main_arg3) (V c main_v19)) := by
  show (cfg0.win 3).cut (grid0.coords t) ((dat0 V c).after 3 t) = _
  rw [after0_3]
  unfold out0_3
  rw [View.canon_unit_zero RegionPayload.zero_offsets]
  simp only [View.ld_unit_zero (S := S5000x128) RegionPayload.zero_offsets, View.ld_unit_zero (S := S128x128) RegionPayload.zero_offsets,
    View.ld_unit_zero (S := S5000x1) RegionPayload.zero_offsets]
  funext j
  obtain ⟨p, q, rfl⟩ : ∃ (p : Fin 5000) (q : Fin 128), j = ix2 p q := ⟨j 0, j 1, eq_ix2 (n0 := 5000) (n1 := 128) j⟩
  exact stored0_apply V c t p q

/-- An index of the result array is in point `t`'s block iff each coordinate is in the block's range. -/
theorem mem_oblock0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v20).slice (win0_3.rect t)).set ↔ _
  rw [View.set_slice_whole, Rect.mem_set_unit]
  exact Iff.rfl

/-- Every index of the result array is in the block of the point its row divided by 5000 names. -/
theorem covered0 (i : S50000x128.Idx) :
    ∃ t : Fin cfg0.N, (cfg0.win 3).flush t = true ∧ i ∈ ((cfg0.win 3).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨-, -, -, -, -, -, e0, e1⟩ := block_index0 t
  refine ⟨t, flush0_3 t, ?_⟩
  rw [mem_oblock0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- After the first call its result array holds the scaled product of the arrays the call found. -/
theorem value0 (c : Dev nD) :
    (Gen.dat0 V c).arrAt 3 cfg0.N = Cert.Gcn.scaledProduct (V c main_arg0) (V c main_arg3) (V c main_v19) :=
  (dat0 V c).arrAt_eq_of_cover 3 (Cert.Gcn.scaledProduct (V c main_arg0) (V c main_arg3) (V c main_v19))
    (fun t _ => flushed0_eq V c t) covered0

end Cert.KernelIdeal.RegionValues

end
-- ==== Proof.Region1Value.lean ====
/-
  The second pipelined call as one function of the arrays it finds.

  The call runs over ten grid points.  At point t it reads rows 5000·t … 5000·t + 4999 of a matrix a and of a
  column d, and the whole of a row r, and writes back those rows of its result.  Each written entry (p, q) of the
  block is the whole-array function "a[n, q] · d[n] + r[q], cut off below at zero" at row n = 5000·t + p; the ten
  blocks tile the 50000 rows (row n lies in the block of point n / 5000), so the result array ends holding that
  function.
-/
import proofs.«164977_j7000796693164_2_alg».proof.Proof.Gen.KernelIdeal.Frame
import proofs.«164977_j7000796693164_2_alg».proof.Proof.Spec
import proofs.«164977_j7000796693164_2_alg».proof.Proof.RegionPayload
import Idealize.ShloMosaic.Lib.Pipeline.Value
import Idealize.ShloMosaic.Lib.ValueIdx

noncomputable section

open scoped BigOperators

namespace Cert.KernelIdeal.RegionValues

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices of the four windows at grid point `t`: the row-blocked ones sit at block row `t`,
    column block 0; the whole-array one at block (0, 0). -/
theorem block_index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, q) of the block of the matrix at point `t` is the matrix at row 5000·t + p. -/
theorem ablock1_apply (c : Dev nD) (t : Fin cfg1.N) (p : Fin 5000) (q : Fin 128) (r : Fin 50000)
    (hr : r.val = t.val * 5000 + p.val) :
    (iblk1 V c 0 t : Vec Ideal S5000x128 .f32) (ix2 p q) = (V c main_v34 : S50000x128.Idx → EReal) (ix2 r q) := by
  obtain ⟨e0, e1, -⟩ := block_index1 t
  unfold iblk1
  rw [View.read_apply]
  show V c main_v34 _ = V c main_v34 _
  refine congrArg (V c main_v34) ?_
  funext a
  apply Fin.ext
  match a with
  | ⟨0, _⟩ => show win1_0.index t (0 : Fin 2) * 5000 + 1 * p.val = r.val; omega
  | ⟨1, _⟩ => show win1_0.index t (1 : Fin 2) * 128 + 1 * q.val = q.val; omega

/-- Entry p of the block of the column at point `t` is the column's entry 5000·t + p. -/
theorem dblock1_apply (c : Dev nD) (t : Fin cfg1.N) (p : Fin 5000) (r : Fin 50000)
    (hr : r.val = t.val * 5000 + p.val) :
    (iblk1 V c 1 t : Vec Ideal S5000x1 .f32) (ix2 p (0 : Fin 1)) = (V c main_v36 : S50000x1.Idx → EReal) (ix2 r (0 : Fin 1)) := by
  obtain ⟨-, -, e0, e1, -⟩ := block_index1 t
  unfold iblk1
  rw [View.read_apply]
  show V c main_v36 _ = V c main_v36 _
  refine congrArg (V c main_v36) ?_
  funext a
  apply Fin.ext
  match a with
  | ⟨0, _⟩ => show win1_1.index t (0 : Fin 2) * 5000 + 1 * p.val = r.val; omega
  | ⟨1, _⟩ => show win1_1.index t (1 : Fin 2) * 1 + 1 * 0 = 0; omega

/-- The block of the row at any point is the row. -/
theorem rblock1_apply (c : Dev nD) (t : Fin cfg1.N) (q : Fin 128) :
    (iblk1 V c 2 t : Vec Ideal S1x128 .f32) (ix2 (0 : Fin 1) q) = (V c main_v35 : S1x128.Idx → EReal) (ix2 (0 : Fin 1) q) := by
  obtain ⟨-, -, -, -, e0, e1, -⟩ := block_index1 t
  unfold iblk1
  rw [View.read_apply]
  show V c main_v35 _ = V c main_v35 _
  refine congrArg (V c main_v35) ?_
  funext a
  apply Fin.ext
  match a with
  | ⟨0, _⟩ => show win1_2.index t (0 : Fin 2) * 1 + 1 * 0 = 0; omega
  | ⟨1, _⟩ => show win1_2.index t (1 : Fin 2) * 128 + 1 * q.val = q.val; omega

/-- Entry (p, q) of the result's block at point `t` sits in the result array at row 5000·t + p, column q. -/
theorem oblock1_emb (t : Fin cfg1.N) (p : Fin 5000) (q : Fin 128) (r : Fin 50000)
    (hr : r.val = t.val * 5000 + p.val) :
    (((cfg1.win 3).blk t).view.emb (ix2 p q) : S50000x128.Idx) = ix2 r q := by
  obtain ⟨-, -, -, -, -, -, e0, e1⟩ := block_index1 t
  funext a
  apply Fin.ext
  match a with
  | ⟨0, _⟩ => show win1_3.index t (0 : Fin 2) * 5000 + 1 * p.val = r.val; omega
  | ⟨1, _⟩ => show win1_3.index t (1 : Fin 2) * 128 + 1 * q.val = q.val; omega

/-- What the body stores at (p, q) at point `t` is the scaled, shifted and cut-off matrix at the array index of
    that entry. -/
theorem stored1_apply (c : Dev nD) (t : Fin cfg1.N) (p : Fin 5000) (q : Fin 128) :
    k1_pay1 (F := Ideal) (iblk1 V c 0 t) (iblk1 V c 1 t) (iblk1 V c 2 t) (ix2 p q)
      = Cert.Gcn.scaleBiasRelu (V c main_v34) (V c main_v36) (V c main_v35) (((cfg1.win 3).blk t).view.emb (ix2 p q)) := by
  have hN : cfg1.N = 10 := N_1
  have ht : t.val < 10 := by have := t.isLt; omega
  have hp : p.val < 5000 := p.isLt
  have hr : t.val * 5000 + p.val < 50000 := by omega
  refine (RegionPayload.pay1_apply (iblk1 V c 0 t) (iblk1 V c 1 t) (iblk1 V c 2 t) p q).trans ?_
  rw [oblock1_emb t p q ⟨t.val * 5000 + p.val, hr⟩ rfl, Cert.Gcn.scaleBiasRelu_apply,
    ablock1_apply V c t p q ⟨t.val * 5000 + p.val, hr⟩ rfl, dblock1_apply V c t p ⟨t.val * 5000 + p.val, hr⟩ rfl,
    rblock1_apply V c t q]

/-- What point `t` writes back is its block of that function of the arrays the call finds. -/
theorem flushed1_eq (c : Dev nD) (t : Fin cfg1.N) :
    (dat1 V c).flushed 3 t = ((cfg1.win 3).blk t).view.read (Elt Ideal)
      (Cert.Gcn.scaleBiasRelu (V c main_v34) (V c main_v36) (V c main_v35)) := by
  show (cfg1.win 3).cut (grid1.coords t) ((dat1 V c).after 3 t) = _
  rw [after1_3]
  unfold out1_3
  rw [View.canon_unit_zero RegionPayload.zero_offsets]
  simp only [View.ld_unit_zero (S := S5000x128) RegionPayload.zero_offsets, View.ld_unit_zero (S := S5000x1) RegionPayload.zero_offsets,
    View.ld_unit_zero (S := S1x128) RegionPayload.zero_offsets]
  funext j
  obtain ⟨p, q, rfl⟩ : ∃ (p : Fin 5000) (q : Fin 128), j = ix2 p q := ⟨j 0, j 1, eq_ix2 (n0 := 5000) (n1 := 128) j⟩
  exact stored1_apply V c t p q

/-- An index of the result array is in point `t`'s block iff each coordinate is in the block's range. -/
theorem mem_oblock1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v37).slice (win1_3.rect t)).set ↔ _
  rw [View.set_slice_whole, Rect.mem_set_unit]
  exact Iff.rfl

/-- Every index of the result array is in the block of the point its row divided by 5000 names. -/
theorem covered1 (i : S50000x128.Idx) :
    ∃ t : Fin cfg1.N, (cfg1.win 3).flush t = true ∧ i ∈ ((cfg1.win 3).blk t).view.set := by
  have hN : cfg1.N = 10 := N_1
  have hi0 : (i 0).val < 50000 := (i 0).isLt
  have hi1 : (i 1).val < 128 := (i 1).isLt
  obtain ⟨t, ht⟩ : ∃ t : Fin cfg1.N, t.val = (i 0).val / 5000 := ⟨⟨(i 0).val / 5000, by omega⟩, rfl⟩
  obtain ⟨-, -, -, -, -, -, e0, e1⟩ := block_index1 t
  refine ⟨t, flush1_3 t, ?_⟩
  rw [mem_oblock1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- After the second call its result array holds the scaled, shifted and cut-off matrix of the arrays the call
    found. -/
theorem value1 (c : Dev nD) :
    (Gen.dat1 V c).arrAt 3 cfg1.N = Cert.Gcn.scaleBiasRelu (V c main_v34) (V c main_v36) (V c main_v35) :=
  (dat1 V c).arrAt_eq_of_cover 3 (Cert.Gcn.scaleBiasRelu (V c main_v34) (V c main_v36) (V c main_v35))
    (fun t _ => flushed1_eq V c t) covered1

end Cert.KernelIdeal.RegionValues

end
-- ==== Proof.RegionValues.lean ====
/-
  The two pipelined calls as whole-array functions of the arrays they find: the first leaves the product x·W
  with row n scaled by the n-th entry of a column (`value0`), the second a matrix scaled the same way, shifted by
  a row and cut off below at zero (`value1`).  Each is proved in its own module; this one gathers them.
-/
import proofs.«164977_j7000796693164_2_alg».proof.Proof.Region0Value
import proofs.«164977_j7000796693164_2_alg».proof.Proof.Region1Value
-- ==== Proof.KernelValue.lean ====
/-
  The kernel program's result array, after the whole run, is its one function of the arguments.

  The last boundary's contents at the result's reference are what the second pipelined call leaves: its whole-array
  function of the aggregated messages, the normalising column and the bias row, each of which is the composed term of
  the array operations before it — over what the first call leaves, its whole-array function of x, W and the same
  normalising column.
-/
import proofs.«164977_j7000796693164_2_alg».proof.Proof.KernelHost
import proofs.«164977_j7000796693164_2_alg».proof.Proof.KernelOut
import proofs.«164977_j7000796693164_2_alg».proof.Proof.RegionValues

set_option maxRecDepth 16384

noncomputable section

namespace Cert.KernelIdeal.Value

open Cert.KernelIdeal Cert.KernelIdeal.Gen Cert.KernelIdeal.Terms Cert.KernelIdeal.HostValues Cert.KernelIdeal.Out
open Idealize.ShloMosaic Idealize.ShloMosaic.TcCoe Idealize.SL.Sem

variable (m : (ℓ : Loc nD τ sig) → Buf (Elt Ideal) ℓ) (ρ : Dev nD → PrngReg)

/-- What the first call leaves: x·W with every row scaled by its node's factor. -/
theorem w4_v20 (c : Dev nD) : (W4 m ρ c (Proc.devRef .tc main_v20) : S50000x128.Idx → EReal)
    = Cert.Gcn.scaledProduct (m ((c : Thread nD τ).loc main_arg0)) (m ((c : Thread nD τ).loc main_arg3))
        (normColumn (m ((c : Thread nD τ).loc main_arg1)) (m ((c : Thread nD τ).loc main_arg2))) := by
  refine (W4_arr m ρ c 3).trans ?_
  rw [Cert.KernelIdeal.RegionValues.value0]
  dsimp only [V3]
  rw [w3_arg0, w3_arg3, w3_v19]
  rfl

/-- The result array after the run. -/
theorem result_eq (c : Dev nD) : (W6 m ρ c (Proc.devRef .tc main_v37) : S50000x128.Idx → EReal)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) := by
  refine (W6_arr m ρ c 3).trans ?_
  rw [Cert.KernelIdeal.RegionValues.value1]
  dsimp only [V5]
  rw [w5_v34, w5_v35, w5_v36, w4_v20, w4_v3, w4_v6, w4_v8, w4_v18, w4_arg4, w3_v3, w3_v6, w3_v8, w3_v18, w3_arg4]
  rfl

end Cert.KernelIdeal.Value

end
-- ==== Proof.LibGatherRows.lean ====
/-
  Entries and rows picked along the first axis by a column of start indices, read at an index.

  `x[idx]` along the first axis lowers to a gather whose start indices form a column [e, 1]: one start index per
  result row. StableHLO reads each start index as a signed integer and clamps it so that the slice fits, here into
  the operand's row range [0, n - 1]. So for a flat operand [n] the result's entry r is the operand's entry whose
  number is the clamped r-th start index; for a matrix operand [n, d] taken a whole row at a time, the result's entry
  (r, j) is the operand's entry (clamped r-th start index, j).
-/
import Idealize.ShloMosaic.Lib.ValueIdx

noncomputable section

namespace Cert.LibGatherRows

open Idealize.ShloMosaic Idealize.ShloMosaic.ValueIdx

variable {α : Type}

/-- The row a start word names among n rows: the word read as a signed integer, clamped into [0, n - 1]. -/
def rowOf (n : Nat) (hn : 0 < n) {w : Nat} (b : BitVec w) : Fin n := ⟨min b.toInt.toNat (n - 1), by omega⟩

/-- The dimension numbers of `x[idx]` for a flat operand [n] and a column [e, 1] of start indices: result [e]. -/
abbrev pickDims (n e : Nat) (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- The gather of a flat operand read at r: the operand at the row the r-th start index names. -/
theorem gather_pick_apply {n e w : Nat} (hn : 0 < n)
    (wf : GatherDims.WF ⟨1, ![n]⟩ ⟨2, ![e, 1]⟩ ⟨1, ![e]⟩ [] [0] [] [0] [] 1 ![1])
    (x : (⟨1, ![n]⟩ : Shape).Idx → α) (idx : IVec ⟨2, ![e, 1]⟩ w) (r : Fin e) :
    Host.gather (pickDims n e wf) x idx (ix1 r) = x (ix1 (rowOf n hn (idx (ix2 r (0 : Fin 1))))) := by
  unfold Host.gather
  congr 1
  funext a
  obtain rfl : a = 0 := Subsingleton.elim _ _
  refine Fin.ext ?_
  show (pickDims n e wf).start (ix1 r) idx 0 + (pickDims n e wf).batchCoord (ix1 r) 0 + (pickDims n e wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims n e wf).startIndexMap from List.mem_singleton.mpr rfl)]
  have hsi : (pickDims n e wf).siIdx (ix1 r) ⟨List.idxOf (0 : Fin 1) (pickDims n e wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The dimension numbers of `x[idx]` for a matrix operand [n, d] taken a row at a time and a column [e, 1] of start
    indices: result [e, d]. -/
abbrev rowsDims (n d e : Nat) (wf : GatherDims.WF ⟨2, ![n, d]⟩ ⟨2, ![e, 1]⟩ ⟨2, ![e, d]⟩ [1] [0] [] [0] [] 1 ![1, d]) :
    GatherDims ⟨2, ![n, d]⟩ ⟨2, ![e, 1]⟩ ⟨2, ![e, d]⟩ where
  offsetDims := [1]
  collapsedSliceDims := [0]
  operandBatchingDims := []
  startIndicesBatchingDims := []
  startIndexMap := [0]
  indexVectorDim := 1
  sliceSizes := ![1, d]
  wf := wf

/-- The gather of whole rows read at (r, j): the operand at (the row the r-th start index names, j). -/
theorem gather_rows_apply {n d e w : Nat} (hn : 0 < n)
    (wf : GatherDims.WF ⟨2, ![n, d]⟩ ⟨2, ![e, 1]⟩ ⟨2, ![e, d]⟩ [1] [0] [] [0] [] 1 ![1, d])
    (x : (⟨2, ![n, d]⟩ : Shape).Idx → α) (idx : IVec ⟨2, ![e, 1]⟩ w) (r : Fin e) (j : Fin d) :
    Host.gather (rowsDims n d e wf) x idx (ix2 r j) = x (ix2 (rowOf n hn (idx (ix2 r (0 : Fin 1)))) j) := by
  have hne : ¬ (1 : Fin 2) ∈ ([0] : List (Fin 2)) := fun h => absurd (List.mem_singleton.mp h) (by decide)
  have h0 : (rowsDims n d e wf).start (ix2 r j) idx (0 : Fin 2) + (rowsDims n d e wf).batchCoord (ix2 r j) (0 : Fin 2)
      + (rowsDims n d e wf).offCoord (ix2 r j) (0 : Fin 2) = (rowOf n hn (idx (ix2 r (0 : Fin 1)))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims n d e wf).startIndexMap from List.mem_singleton.mpr rfl)]
    have hsi : (rowsDims n d e wf).siIdx (ix2 r j) ⟨List.idxOf (0 : Fin 2) (rowsDims n d e wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have h1 : (rowsDims n d e wf).start (ix2 r j) idx (1 : Fin 2) + (rowsDims n d e wf).batchCoord (ix2 r j) (1 : Fin 2)
      + (rowsDims n d e wf).offCoord (ix2 r j) (1 : Fin 2) = j.val := by
    have hs : (rowsDims n d e wf).start (ix2 r j) idx (1 : Fin 2) = 0 := by
      unfold GatherDims.start
      rw [dif_neg (show ¬ (1 : Fin 2) ∈ (rowsDims n d e wf).startIndexMap from hne)]
    have hk : (1 : Fin 2) ∈ (rowsDims n d e wf).sKept :=
      (GatherDims.mem_sKept _ _).mpr ⟨hne, List.not_mem_nil⟩
    have ho : (rowsDims n d e wf).offCoord (ix2 r j) (1 : Fin 2) = j.val := by
      unfold GatherDims.offCoord
      rw [dif_pos hk]
      rfl
    rw [hs, GatherDims.batchCoord_eq_zero _ _ _ List.not_mem_nil, ho, Nat.zero_add]
  unfold Host.gather
  congr 1
  funext a
  refine Fin.ext ?_
  match a with
  | ⟨0, _⟩ => exact h0
  | ⟨1, _⟩ => exact h1

end Cert.LibGatherRows

end
-- ==== Proof.LibDegreeScale.lean ====
/-
  Scaling by an inverse square root of a degree, over the extended reals.

  `invSqrtDeg deg` is 1/sqrt(deg) where the degree is positive and 0 elsewhere — the select on `deg > 0` between
  the reciprocal square root and zero.  Whatever extended real the degree is, this factor is a nonnegative real
  number (at +inf the reciprocal square root is 0, at a positive real it is a positive real, and elsewhere the
  select takes the zero), and cutting the degree off below at zero first changes nothing.  A nonnegative real
  factor distributes over every finite sum of extended reals, infinite or not: `sum_mul_of_nonneg`.
-/
import Idealize.ShloMosaic.PureOps.Ideal

noncomputable section

open scoped BigOperators

namespace Cert.LibDegreeScale

open Idealize.ShloMosaic

/-- 1/sqrt(deg) where the degree is positive, 0 elsewhere. -/
def invSqrtDeg (deg : EReal) : EReal := Scalar.select (Ideal.cmp .ogt deg 0) (Ideal.rsqrt deg) 0

/-- The comparison `deg > 0` as a bit. -/
theorem cmp_ogt_zero (deg : EReal) : Ideal.cmp .ogt deg 0 = BitVec.ofBool (decide (0 < deg)) := rfl

theorem invSqrtDeg_of_pos {deg : EReal} (h : 0 < deg) : invSqrtDeg deg = Ideal.rsqrt deg := by
  unfold invSqrtDeg
  rw [cmp_ogt_zero, decide_eq_true h]
  exact if_pos rfl

theorem invSqrtDeg_of_not_pos {deg : EReal} (h : ¬ 0 < deg) : invSqrtDeg deg = 0 := by
  unfold invSqrtDeg
  rw [cmp_ogt_zero, decide_eq_false h]
  exact if_neg (by decide)

/-- Cutting the degree off below at zero first gives the same factor. -/
theorem invSqrtDeg_max (deg : EReal) : invSqrtDeg (max deg 0) = invSqrtDeg deg := by
  by_cases h : 0 < deg
  · rw [max_eq_left h.le]
  · rw [max_eq_right (not_lt.mp h), invSqrtDeg_of_not_pos h, invSqrtDeg_of_not_pos (lt_irrefl _)]

/-- The factor is a nonnegative real number. -/
theorem invSqrtDeg_real (deg : EReal) : ∃ r : ℝ, 0 ≤ r ∧ invSqrtDeg deg = (r : EReal) := by
  by_cases h : 0 < deg
  · rw [invSqrtDeg_of_pos h]
    induction deg using EReal.rec with
    | bot => exact absurd h (by simp)
    | top => exact ⟨0, le_refl _, by simp⟩
    | coe r =>
      have hr : 0 < r := by exact_mod_cast h
      refine ⟨(Real.sqrt r)⁻¹, inv_nonneg.mpr (Real.sqrt_nonneg r), ?_⟩
      rw [Ideal.rsqrt_coe, if_neg (not_lt.mpr hr.le), if_neg hr.ne']
  · exact ⟨0, le_refl _, by rw [invSqrtDeg_of_not_pos h]; simp⟩

theorem invSqrtDeg_nonneg (deg : EReal) : 0 ≤ invSqrtDeg deg := by
  obtain ⟨r, hr, e⟩ := invSqrtDeg_real deg
  rw [e]; exact_mod_cast hr

theorem invSqrtDeg_ne_top (deg : EReal) : invSqrtDeg deg ≠ ⊤ := by
  obtain ⟨r, _, e⟩ := invSqrtDeg_real deg
  rw [e]; exact EReal.coe_ne_top r

/-- A nonnegative real factor distributes over a finite sum of extended reals. -/
theorem sum_mul_of_nonneg {ι : Type*} (s : Finset ι) (f : ι → EReal) {d : EReal} (h0 : 0 ≤ d) (ht : d ≠ ⊤) :
    (∑ j ∈ s, f j) * d = ∑ j ∈ s, f j * d := by
  classical
  induction s using Finset.induction_on with
  | empty => simp
  | insert a s ha ih =>
    rw [Finset.sum_insert ha, Finset.sum_insert ha, EReal.right_distrib_of_nonneg_of_ne_top h0 ht, ih]

end Cert.LibDegreeScale

end
-- ==== Proof.KernelAt.lean ====
/-
  The kernel program's array operations between its two pipelined calls, read at an entry.

  The normalising factor of node q is 1/sqrt of its degree where that is positive and 0 elsewhere (cutting the degree
  off at zero first changes nothing).  The message (r, c') is entry c' of the feature row that the r-th wrapped source
  index names, times the r-th weight.  The aggregate at (p, c) is the sum of the messages that land on (p, c).
-/
import proofs.«164977_j7000796693164_2_alg».proof.Proof.KernelTerms
import proofs.«164977_j7000796693164_2_alg».proof.Proof.LibGatherRows
import proofs.«164977_j7000796693164_2_alg».proof.Proof.LibLayout
import proofs.«164977_j7000796693164_2_alg».proof.Proof.LibDegreeScale
import Idealize.ShloMosaic.Lib.Pipeline.Value
import Idealize.ShloMosaic.Lib.ValueIdx
import Idealize.ShloMosaic.PureOps.Ideal.Laws

noncomputable section

open scoped BigOperators

namespace Cert.KernelIdeal.At

open Cert.KernelIdeal Cert.KernelIdeal.Gen Cert.KernelIdeal.Terms
open Idealize.ShloMosaic Idealize.ShloMosaic.ValueIdx
open Cert.LibGatherRows Cert.LibLayout Cert.LibDegreeScale

/-- The vector of zeros holds zero. -/
theorem zeroN_apply (i : S50000.Idx) : zeroN i = 0 := by
  unfold zeroN
  rw [broadcastInDim_apply _ bcast_S_S50000 _ i (fun a => a.elim0) (fun a => a.elim0)]
  exact Ideal.ofBits_zero_f32

/-- The normalising factor of node q, from its degree. -/
theorem normCol_apply (deg : FVec Ideal S50000 .f32) (q : Fin 50000) :
    normCol deg (ix1 q) = invSqrtDeg (deg (ix1 q)) := by
  have e : normCol deg (ix1 q) = invSqrtDeg (max (deg (ix1 q)) (zeroN (ix1 q))) := by
    rw [zeroN_apply]
    show Scalar.select (Ideal.cmp .ogt (max (deg (ix1 q)) (zeroN (ix1 q))) (zeroN (ix1 q)))
      (Ideal.rsqrt (max (deg (ix1 q)) (zeroN (ix1 q)))) (zeroN (ix1 q)) = _
    rw [zeroN_apply]
    rfl
  rw [e, zeroN_apply, invSqrtDeg_max]

/-- The message (r, c'): the feature row the r-th wrapped source index names, at c', times the r-th weight. -/
theorem messages_apply (h : FVec Ideal S50000x128 .bf16) (s : IVec S650000 32) (e : FVec Ideal S650000 .f32)
    (r : Fin 650000) (c' : Fin 128) :
    messages h s e (ix2 r c') = h (ix2 (rowOf 50000 (by decide) (wrapRows s (ix1 r))) c') * e (ix1 r) := by
  have hg : Host.gather gather_S50000x128_S650000x1_S650000x128_1_0_n_n_0_1_1128 h (asCol (wrapRows s)) (ix2 r c')
      = h (ix2 (rowOf 50000 (by decide) (wrapRows s (ix1 r))) c') := by
    refine (gather_rows_apply (by decide) gather_S50000x128_S650000x1_S650000x128_1_0_n_n_0_1_1128_wf h (asCol (wrapRows s)) r c').trans ?_
    unfold asCol
    rw [broadcastInDim_a_a1_apply]
  have hb : broadcastInDim S650000x128 ![0, 1] bcast_S650000x1_S650000x128_0_1
      (broadcastInDim S650000x1 ![0] bcast_S650000_S650000x1_0 e) (ix2 r c') = e (ix1 r) := by
    rw [broadcastInDim_a1_ab_apply, broadcastInDim_a_a1_apply]
  show Host.gather gather_S50000x128_S650000x1_S650000x128_1_0_n_n_0_1_1128 h (asCol (wrapRows s)) (ix2 r c')
    * broadcastInDim S650000x128 ![0, 1] bcast_S650000x1_S650000x128_0_1
      (broadcastInDim S650000x1 ![0] bcast_S650000_S650000x1_0 e) (ix2 r c') = _
  rw [hg, hb]

/-- The aggregate at (p, c): the sum of the messages that land there. -/
theorem aggregate_apply (h : FVec Ideal S50000x128 .bf16) (s d : IVec S650000 32) (e : FVec Ideal S650000 .f32)
    (p : Fin 50000) (c : Fin 128) :
    aggregate h s d e (ix2 p c)
      = 0 + ∑ j ∈ Finset.univ.filter (fun j => scatter_S50000x128_S650000x1_S650000x128_1_0_0_1.resultIdx? j (asCol d) = some (ix2 p c)),
          messages h s e j := by
  have hz : broadcastInDim S50000x128 ![] bcast_S_S50000x128 (constant (F := Ideal) S_ .f32 0x00000000#32) (ix2 p c) = 0 := by
    rw [broadcastInDim_apply _ bcast_S_S50000x128 _ (ix2 p c) (fun a => a.elim0) (fun a => a.elim0)]
    exact Ideal.ofBits_zero_f32
  show broadcastInDim S50000x128 ![] bcast_S_S50000x128 (constant (F := Ideal) S_ .f32 0x00000000#32) (ix2 p c)
    + ∑ j ∈ Finset.univ.filter (fun j => scatter_S50000x128_S650000x1_S650000x128_1_0_0_1.resultIdx? j (asCol d) = some (ix2 p c)),
        messages h s e j = _
  rw [hz]

end Cert.KernelIdeal.At

end
-- ==== Proof.LibScatterRows.lean ====
/-
  Rows added into a matrix at rows named by a column of start indices, read at an entry.

  `m.at[idx].add(u)` for a matrix `m : [n, d]`, a column `idx : [e, 1]` of start indices and updates `u : [e, d]` adds row
  r of the updates into the row of `m` that the r-th start index names, when that index, read as a signed integer,
  is a row number below n; otherwise row r is dropped.  So an update entry (r, j) that lands on the entry (p, c) has
  its start index, read signed, equal to p (`start_of_lands`).  Such a start index is not negative, so the wrap a
  gather applies to negative indices leaves it alone (`wrap_of_nonneg`), and the gather's clamp reads it as the row p
  too (`rowOf_of_toInt`): the row a message is added into is the row a gather with the same index would read.
-/
import Idealize.ShloMosaic.Lib.ValueIdx
import proofs.«164977_j7000796693164_2_alg».proof.Proof.LibGatherRows

noncomputable section

namespace Cert.LibScatterRows

open Idealize.ShloMosaic Idealize.ShloMosaic.ValueIdx Cert.LibGatherRows

/-- The dimension numbers of `m.at[idx].add(u)`: `m : [n, d]`, a column `idx : [e, 1]`, `u : [e, d]`. -/
abbrev addRowsDims (n d e : Nat) (wf : ScatterDims.WF ⟨2, ![n, d]⟩ ⟨2, ![e, 1]⟩ ⟨2, ![e, d]⟩ [1] [0] [0] 1) :
    ScatterDims ⟨2, ![n, d]⟩ ⟨2, ![e, 1]⟩ ⟨2, ![e, d]⟩ where
  updateWindowDims := [1]
  insertedWindowDims := [0]
  scatterDimsToOperandDims := [0]
  indexVectorDim := 1
  wf := wf

/-- An update entry (r, j) that lands on the entry (p, c): the r-th start index, read signed, is p. -/
theorem start_of_lands {n d e w : Nat} (wf : ScatterDims.WF ⟨2, ![n, d]⟩ ⟨2, ![e, 1]⟩ ⟨2, ![e, d]⟩ [1] [0] [0] 1)
    (idx : IVec ⟨2, ![e, 1]⟩ w) (r : Fin e) (j : Fin d) (p : Fin n) (c : Fin d)
    (h : (addRowsDims n d e wf).resultIdx? (ix2 r j) idx = some (ix2 p c)) :
    (idx (ix2 r (0 : Fin 1))).toInt = (p.val : Int) := by
  have hmem : (0 : Fin 2) ∈ (addRowsDims n d e wf).scatterDimsToOperandDims := List.mem_singleton.mpr rfl
  have hstart : (addRowsDims n d e wf).start (ix2 r j) idx (0 : Fin 2) = (idx (ix2 r (0 : Fin 1))).toInt := by
    unfold ScatterDims.start
    rw [dif_pos hmem]
    have hsi : (addRowsDims n d e wf).siIdx (ix2 r j) ⟨List.idxOf (0 : Fin 2) (addRowsDims n d e wf).scatterDimsToOperandDims,
        List.idxOf_lt_length_iff.2 hmem⟩ = ix2 r (0 : Fin 1) := by
      funext b; refine Fin.ext ?_
      match b with
      | ⟨0, _⟩ => rfl
      | ⟨1, _⟩ => rfl
    rw [hsi]
  have hwin : (addRowsDims n d e wf).window (ix2 r j) (0 : Fin 2) = 0 := by
    unfold ScatterDims.window
    rw [dif_neg (by simp [ScatterDims.sKept, Shape.kept, List.mem_filter, List.mem_finRange])]
  unfold ScatterDims.resultIdx? at h
  split at h
  · rename_i hin
    have h0 := congrFun (Option.some.inj h) (0 : Fin 2)
    have hv : ((addRowsDims n d e wf).start (ix2 r j) idx (0 : Fin 2) + (addRowsDims n d e wf).window (ix2 r j) (0 : Fin 2)).toNat = p.val :=
      congrArg Fin.val h0
    have hnn := (hin (0 : Fin 2)).1
    rw [hstart, hwin] at hv hnn
    simp only [Nat.cast_zero, add_zero] at hv hnn
    omega
  · exact absurd h (by simp)

/-- A start index that reads, signed, as the row number p names the row p. -/
theorem rowOf_of_toInt {n w : Nat} (hn : 0 < n) (b : BitVec w) (p : Fin n) (h : b.toInt = (p.val : Int)) :
    rowOf n hn b = p := by
  apply Fin.ext
  show min b.toInt.toNat (n - 1) = p.val
  rw [h, Int.toNat_natCast]
  have := p.isLt
  omega

/-- The wrap of negative indices leaves a nonnegative index alone. -/
theorem wrap_of_nonneg (b k : BitVec 32) (h : 0 ≤ b.toInt) :
    Scalar.select (IntOp.cmpi .slt b 0#32) (IntOp.addi b k) b = b := by
  have hs : b.slt 0#32 = false := by
    simp only [BitVec.slt, BitVec.toInt_zero]
    exact decide_eq_false (not_lt.mpr h)
  have hc : IntOp.cmpi .slt b 0#32 = 0#1 := by
    show BitVec.ofBool (b.slt 0#32) = 0#1
    rw [hs]; rfl
  rw [hc]
  exact if_neg (by decide)

end Cert.LibScatterRows

end
-- ==== Proof.RefSide.lean ====
/-
  The reference program read at an index.

  The reference computes, for every message e (an edge or a self loop) and feature c', the product of
  the source row's entry of x·W with the message's normalising weight dinv[src e] · ew e · dinv[dst e], and
  sums the messages into their target rows; it then adds the bias row and cuts the result off below at zero.
  Rows are picked by start words read signed and clamped into the row range; a summed entry is the sum of
  the messages whose landing index is that entry.
-/
import proofs.«164977_j7000796693164_2_alg».proof.Proof.Gen.ReferenceIdeal.Read
import proofs.«164977_j7000796693164_2_alg».proof.Proof.Spec
import proofs.«164977_j7000796693164_2_alg».proof.Proof.LibGatherRows
import proofs.«164977_j7000796693164_2_alg».proof.Proof.LibLayout
import proofs.«164977_j7000796693164_2_alg».proof.Proof.LibDense
import Idealize.ShloMosaic.Lib.ValueIdx
import Idealize.ShloMosaic.PureOps.Ideal.Laws

noncomputable section

open scoped BigOperators

namespace Cert.RefSide

open Cert.ReferenceIdeal Cert.ReferenceIdeal.Gen Cert.ReferenceIdeal.Read Cert.Gcn Cert.LibGatherRows
open Idealize.ShloMosaic Idealize.ShloMosaic.ValueIdx

/-! ## Index equations: the composed index functions of the layout operations, by coordinates -/

theorem idx22 (e : Fin 650000) : idx_main_v22 (ix2 e (0 : Fin 1)) = ix1 e :=
  funext fun a => Fin.ext (by match a with | ⟨0, _⟩ => rfl)

theorem idx30 (e : Fin 650000) : idx_main_v30 (ix2 e (0 : Fin 1)) = ix1 e :=
  funext fun a => Fin.ext (by match a with | ⟨0, _⟩ => rfl)

theorem idx39 (e : Fin 650000) : idx_main_v39 (ix2 e (0 : Fin 1)) = ix1 e :=
  funext fun a => Fin.ext (by match a with | ⟨0, _⟩ => rfl)

theorem idx41 (e : Fin 650000) : idx_main_v41 (ix2 e (0 : Fin 1)) = ix1 e :=
  funext fun a => Fin.ext (by match a with | ⟨0, _⟩ => rfl)

theorem idx42 (e : Fin 650000) (c' : Fin 128) : idx_main_v42 (ix2 e c') = ix2 e (0 : Fin 1) :=
  funext fun a => Fin.ext (by match a with | ⟨0, _⟩ => rfl | ⟨1, _⟩ => rfl)

theorem idx47 (c : Fin 128) : idx_main_v47 (ix2 (0 : Fin 1) c) = ix1 c :=
  funext fun a => Fin.ext (by match a with | ⟨0, _⟩ => rfl)

theorem idx48 (p : Fin 50000) (c : Fin 128) : idx_main_v48 (ix2 p c) = ix2 (0 : Fin 1) c :=
  funext fun a => Fin.ext (by match a with | ⟨0, _⟩ => rfl | ⟨1, _⟩ => rfl)

theorem lidx33 (p : Fin 50000) (c k : Fin 128) : lidx_main_v33 (ix2 p c) k = ix2 p k :=
  funext fun a => Fin.ext (by match a with | ⟨0, _⟩ => rfl | ⟨1, _⟩ => rfl)

theorem ridx33 (p : Fin 50000) (c k : Fin 128) : ridx_main_v33 (ix2 p c) k = ix2 k c :=
  funext fun a => Fin.ext (by match a with | ⟨0, _⟩ => rfl | ⟨1, _⟩ => rfl)

/-! ## The product x·W and the three picks -/

/-- Entry (p, c) of the reference's product is the sum over k of x[p, k] · W[k, c]. -/
theorem v33_apply (x0 : (⟨S50000x128, .f32⟩ : BufTy).Contents (Elt Ideal)) (x3 : (⟨S128x128, .f32⟩ : BufTy).Contents (Elt Ideal))
    (p : Fin 50000) (c : Fin 128) : val_main_v33 (F := Ideal) x0 x3 (ix2 p c) = hmat x0 x3 p c := by
  rw [val_main_v33_apply]
  unfold hmat
  refine Finset.sum_congr rfl fun k _ => ?_
  rw [lidx33, ridx33]

/-- The normalising entry picked at the source of message e. -/
theorem v23_apply (x1 : (⟨S2x600000, .i32⟩ : BufTy).Contents (Elt Ideal)) (x2 : (⟨S600000, .f32⟩ : BufTy).Contents (Elt Ideal))
    (e : Fin 650000) :
    val_main_v23 (F := Ideal) x1 x2 (ix1 e)
      = val_main_v16 (F := Ideal) x1 x2 (ix1 (rowOf 50000 (by decide) (val_main_v21 (F := Ideal) x1 (ix1 e)))) := by
  unfold val_main_v23
  refine (gather_pick_apply (n := 50000) (e := 650000) (by decide) Facts₀.gather_S50000_S650000x1_S650000_n_0_n_n_0_1_1_wf
    (val_main_v16 (F := Ideal) x1 x2) (val_main_v22 (F := Ideal) x1) e).trans ?_
  rw [val_main_v22_apply, idx22]

/-- The normalising entry picked at the target of message e. -/
theorem v31_apply (x1 : (⟨S2x600000, .i32⟩ : BufTy).Contents (Elt Ideal)) (x2 : (⟨S600000, .f32⟩ : BufTy).Contents (Elt Ideal))
    (e : Fin 650000) :
    val_main_v31 (F := Ideal) x1 x2 (ix1 e)
      = val_main_v16 (F := Ideal) x1 x2 (ix1 (rowOf 50000 (by decide) (val_main_v29 (F := Ideal) x1 (ix1 e)))) := by
  unfold val_main_v31
  refine (gather_pick_apply (n := 50000) (e := 650000) (by decide) Facts₀.gather_S50000_S650000x1_S650000_n_0_n_n_0_1_1_wf
    (val_main_v16 (F := Ideal) x1 x2) (val_main_v30 (F := Ideal) x1) e).trans ?_
  rw [val_main_v30_apply, idx30]

/-- The row of x·W picked at the source of message e, at feature c'. -/
theorem v40_apply (x0 : (⟨S50000x128, .f32⟩ : BufTy).Contents (Elt Ideal)) (x1 : (⟨S2x600000, .i32⟩ : BufTy).Contents (Elt Ideal))
    (x3 : (⟨S128x128, .f32⟩ : BufTy).Contents (Elt Ideal)) (e : Fin 650000) (c' : Fin 128) :
    val_main_v40 (F := Ideal) x0 x1 x3 (ix2 e c')
      = hmat x0 x3 (rowOf 50000 (by decide) (val_main_v38 (F := Ideal) x1 (ix1 e))) c' := by
  unfold val_main_v40
  refine (gather_rows_apply (n := 50000) (d := 128) (e := 650000) (by decide)
    Facts₀.gather_S50000x128_S650000x1_S650000x128_1_0_n_n_0_1_1128_wf
    (val_main_v33 (F := Ideal) x0 x3) (val_main_v39 (F := Ideal) x1) e c').trans ?_
  rw [val_main_v39_apply, idx39, v33_apply]

/-! ## The messages -/

/-- The reference's message for update (e, c'): the source row's entry of x·W times the message's
    normalising weight (dinv[src e] · ew e) · dinv[dst e]. -/
def refMsg (x0 : (⟨S50000x128, .f32⟩ : BufTy).Contents (Elt Ideal)) (x1 : (⟨S2x600000, .i32⟩ : BufTy).Contents (Elt Ideal))
    (x2 : (⟨S600000, .f32⟩ : BufTy).Contents (Elt Ideal)) (x3 : (⟨S128x128, .f32⟩ : BufTy).Contents (Elt Ideal))
    (e : Fin 650000) (c' : Fin 128) : EReal :=
  hmat x0 x3 (rowOf 50000 (by decide) (val_main_v38 (F := Ideal) x1 (ix1 e))) c'
    * ((val_main_v16 (F := Ideal) x1 x2 (ix1 (rowOf 50000 (by decide) (val_main_v21 (F := Ideal) x1 (ix1 e))))
          * val_main_v8 (F := Ideal) x2 (ix1 e))
        * val_main_v16 (F := Ideal) x1 x2 (ix1 (rowOf 50000 (by decide) (val_main_v29 (F := Ideal) x1 (ix1 e)))))

theorem v43_apply (x0 : (⟨S50000x128, .f32⟩ : BufTy).Contents (Elt Ideal)) (x1 : (⟨S2x600000, .i32⟩ : BufTy).Contents (Elt Ideal))
    (x2 : (⟨S600000, .f32⟩ : BufTy).Contents (Elt Ideal)) (x3 : (⟨S128x128, .f32⟩ : BufTy).Contents (Elt Ideal))
    (e : Fin 650000) (c' : Fin 128) :
    val_main_v43 (F := Ideal) x0 x1 x2 x3 (ix2 e c') = refMsg x0 x1 x2 x3 e c' := by
  rw [val_main_v43_apply, v40_apply, val_main_v42_apply, idx42, val_main_v41_apply, idx41, val_main_v32_apply,
    val_main_v24_apply, v23_apply, v31_apply]
  rfl

/-! ## The summed messages, the bias and the cut-off -/

theorem ref_apply (x0 : (⟨S50000x128, .f32⟩ : BufTy).Contents (Elt Ideal)) (x1 : (⟨S2x600000, .i32⟩ : BufTy).Contents (Elt Ideal))
    (x2 : (⟨S600000, .f32⟩ : BufTy).Contents (Elt Ideal)) (x3 : (⟨S128x128, .f32⟩ : BufTy).Contents (Elt Ideal))
    (x4 : (⟨S128, .f32⟩ : BufTy).Contents (Elt Ideal)) (p : Fin 50000) (c : Fin 128) :
    val_main_v50 (F := Ideal) x0 x1 x2 x3 x4 (ix2 p c)
      = max ((0 + ∑ j ∈ Finset.univ.filter (fun j =>
                  scatter_S50000x128_S650000x1_S650000x128_1_0_0_1.resultIdx? j (val_main_v45 (F := Ideal) x1) = some (ix2 p c)),
                val_main_v43 (F := Ideal) x0 x1 x2 x3 j) + x4 (ix1 c)) 0 := by
  rw [val_main_v50_apply, val_main_v49_apply, val_main_call1_v0_apply, val_main_call1_cst_apply, val_main_v48_apply, idx48,
    val_main_v47_apply, idx47]
  unfold val_main_v46
  simp only [Host.scatterAdd, Ideal.hostScatterAdd_def, Ideal.hostScatterAdd, val_main_v44_apply, val_main_cst_8_apply,
    Ideal.ofBits_def, Ideal.ofBits_zero_f32, Ideal.addf_def, Ideal.maximumf_def]

/-- The same entry with every message written out by its coordinates. -/
theorem ref_apply_msg (x0 : (⟨S50000x128, .f32⟩ : BufTy).Contents (Elt Ideal)) (x1 : (⟨S2x600000, .i32⟩ : BufTy).Contents (Elt Ideal))
    (x2 : (⟨S600000, .f32⟩ : BufTy).Contents (Elt Ideal)) (x3 : (⟨S128x128, .f32⟩ : BufTy).Contents (Elt Ideal))
    (x4 : (⟨S128, .f32⟩ : BufTy).Contents (Elt Ideal)) (p : Fin 50000) (c : Fin 128) :
    val_main_v50 (F := Ideal) x0 x1 x2 x3 x4 (ix2 p c)
      = max ((0 + ∑ j ∈ Finset.univ.filter (fun j : S650000x128.Idx =>
                  scatter_S50000x128_S650000x1_S650000x128_1_0_0_1.resultIdx? j (val_main_v45 (F := Ideal) x1) = some (ix2 p c)),
                refMsg x0 x1 x2 x3 (j 0) (j 1)) + x4 (ix1 c)) 0 := by
  rw [ref_apply]
  refine congrArg (fun s => max ((0 + s) + x4 (ix1 c)) 0) (Finset.sum_congr rfl fun j _ => ?_)
  exact (congrArg (val_main_v43 (F := Ideal) x0 x1 x2 x3) (eq_ix2 j)).trans (v43_apply x0 x1 x2 x3 (j 0) (j 1))

end Cert.RefSide

end
-- ==== Proof.BridgeCore.lean ====
/-
  The kernel program's result at an entry, in the reference's own terms.

  At (p, c) the kernel's result is max((Σ over the messages j that land on (p, c) of hs[src j, c'] · ew j) · dinv p + b c, 0),
  where hs[q, c'] = (x·W)[q, c'] · dinv q.  The factor dinv p is a nonnegative real, so it distributes over the sum,
  whatever the summands are.  A message that lands on row p has target p, so the factor the reference gathers at the
  message's target is dinv p as well; the products then agree by commutativity and associativity alone:
  ((xw · dinv q) · ew) · dinv p = xw · ((dinv q · ew) · dinv p).
-/
import proofs.«164977_j7000796693164_2_alg».proof.Proof.KernelOut
import proofs.«164977_j7000796693164_2_alg».proof.Proof.KernelAt
import proofs.«164977_j7000796693164_2_alg».proof.Proof.LibScatterRows
import proofs.«164977_j7000796693164_2_alg».proof.Proof.LibDegreeScale
import proofs.«164977_j7000796693164_2_alg».proof.Proof.LibLayout
import proofs.«164977_j7000796693164_2_alg».proof.Proof.RefSide
import Idealize.ShloMosaic.Lib.ValueLayout

noncomputable section

open scoped BigOperators

namespace Cert.Bridge

open Cert.KernelIdeal Cert.KernelIdeal.Gen Cert.KernelIdeal.Terms Cert.KernelIdeal.Out Cert.KernelIdeal.At
open Idealize.ShloMosaic Idealize.ShloMosaic.ValueIdx
open Cert.ReferenceIdeal.Read
open Cert.Gcn Cert.LibGatherRows Cert.LibScatterRows Cert.LibDegreeScale Cert.LibLayout
open Cert.RefSide (refMsg)

/-- The reference's normalising factor of node q, from its degree. -/
theorem v16_apply (x1 : IVec S2x600000 32) (x2 : FVec Ideal S600000 .f32) (q : Fin 50000) :
    val_main_v16 (F := Ideal) x1 x2 (ix1 q) = invSqrtDeg (val_main_v11 (F := Ideal) x1 x2 (ix1 q)) := by
  have hz : val_main_v12 (F := Ideal) (ix1 q) = 0 := by
    rw [val_main_v12_apply]; exact Ideal.ofBits_zero_f32
  have hz' : val_main_v15 (F := Ideal) (ix1 q) = 0 := by
    rw [val_main_v15_apply]; exact Ideal.ofBits_zero_f32
  rw [val_main_v16_apply, val_main_v13_apply, val_main_v14_apply, hz, hz']
  generalize val_main_v11 (F := Ideal) x1 x2 (ix1 q) = d
  rfl

/-- The two wrapped source vectors of the reference are the kernel's. -/
theorem v21_eq (x1 : IVec S2x600000 32) : val_main_v21 (F := Ideal) x1 = wrapRows (val_main_v3 (F := Ideal) x1) := rfl
theorem v38_eq (x1 : IVec S2x600000 32) : val_main_v38 (F := Ideal) x1 = wrapRows (val_main_v3 (F := Ideal) x1) := rfl

/-- The wrapped target of a message whose target, read signed, is the row p names the row p. -/
theorem v29_row (x1 : IVec S2x600000 32) (r : Fin 650000) (p : Fin 50000)
    (h : (val_main_v6 (F := Ideal) x1 (ix1 r)).toInt = (p.val : Int)) :
    rowOf 50000 (by decide) (val_main_v29 (F := Ideal) x1 (ix1 r)) = p := by
  have e : val_main_v29 (F := Ideal) x1 (ix1 r) = val_main_v6 (F := Ideal) x1 (ix1 r) := by
    have hz : val_main_v25 (F := Ideal) (ix1 r) = 0#32 := by rw [val_main_v25_apply]; rfl
    rw [val_main_v29_apply, val_main_v26_apply, val_main_v28_apply, hz]
    exact wrap_of_nonneg _ _ (by rw [h]; exact Int.natCast_nonneg _)
  rw [e]
  exact rowOf_of_toInt _ _ p h

/-- The kernel's result at (p, c), as the reference spells it. -/
theorem kernelOut_apply (x0 : FVec Ideal S50000x128 .f32) (x1 : IVec S2x600000 32) (x2 : FVec Ideal S600000 .f32)
    (x3 : FVec Ideal S128x128 .f32) (x4 : FVec Ideal S128 .f32) (p : Fin 50000) (c : Fin 128) :
    kernelOut x0 x1 x2 x3 x4 (ix2 p c)
      = max ((0 + ∑ j ∈ Finset.univ.filter (fun j => Cert.ReferenceIdeal.scatter_S50000x128_S650000x1_S650000x128_1_0_0_1.resultIdx? j
                  (val_main_v45 (F := Ideal) x1) = some (ix2 p c)),
                refMsg x0 x1 x2 x3 (j 0) (j 1)) + x4 (ix1 c)) 0 := by
  have hcol : ∀ q : Fin 50000, normColumn x1 x2 (ix2 q (0 : Fin 1)) = invSqrtDeg (val_main_v11 (F := Ideal) x1 x2 (ix1 q)) := by
    intro q
    unfold normColumn
    rw [shapeCast_a_a1_apply, normCol_apply]
  have hrow : shapeCast S1x128 x4 shapeCasts_S128_S1x128 (ix2 (0 : Fin 1) c) = x4 (ix1 c) :=
    shapeCast_apply x4 shapeCasts_S128_S1x128 _ _ (by
      rw [Shape.rowMajor_val_two, Shape.rowMajor_val_one]
      show c.val = 0 * 128 + c.val
      omega)
  unfold kernelOut
  rw [scaleBiasRelu_apply, aggregate_apply, hcol, hrow, zero_add, zero_add,
    sum_mul_of_nonneg _ _ (invSqrtDeg_nonneg _) (invSqrtDeg_ne_top _)]
  refine congrArg (fun t : EReal => max (t + x4 (ix1 c)) 0) ?_
  refine Finset.sum_congr rfl fun j hj => ?_
  obtain ⟨r, c', rfl⟩ : ∃ (r : Fin 650000) (c' : Fin 128), j = ix2 r c' := ⟨j 0, j 1, eq_ix2 j⟩
  have hland := (Finset.mem_filter.mp hj).2
  have hst : (asCol (val_main_v6 (F := Ideal) x1) (ix2 r (0 : Fin 1))).toInt = (p.val : Int) :=
    start_of_lands scatter_S50000x128_S650000x1_S650000x128_1_0_0_1_wf _ r c' p c hland
  have hst' : (val_main_v6 (F := Ideal) x1 (ix1 r)).toInt = (p.val : Int) := by
    unfold asCol at hst
    rw [broadcastInDim_a_a1_apply] at hst
    exact hst
  show messages _ _ _ (ix2 r c') * _ = refMsg x0 x1 x2 x3 r c'
  unfold refMsg
  rw [messages_apply, scaledProduct_apply, hcol, v16_apply, v16_apply, v21_eq, v38_eq, v29_row x1 r p hst']
  simp only [mul_assoc]

/-- The two programs' results are one function of the arguments. -/
theorem kernelOut_eq (x0 : FVec Ideal S50000x128 .f32) (x1 : IVec S2x600000 32) (x2 : FVec Ideal S600000 .f32)
    (x3 : FVec Ideal S128x128 .f32) (x4 : FVec Ideal S128 .f32) :
    kernelOut x0 x1 x2 x3 x4 = val_main_v50 (F := Ideal) x0 x1 x2 x3 x4 := by
  funext i
  obtain ⟨p, c, rfl⟩ : ∃ (p : Fin 50000) (c : Fin 128), i = ix2 p c := ⟨i 0, i 1, eq_ix2 i⟩
  exact (kernelOut_apply x0 x1 x2 x3 x4 p c).trans (Cert.RefSide.ref_apply_msg x0 x1 x2 x3 x4 p c).symm

end Cert.Bridge

end
-- ==== Proof.lean ====
/-
  A graph-convolution layer in two arrangements.

  Both programs compute, for 50000 nodes with 128 features and 650000 messages (600000 weighted edges and one self loop
  per node),  out[p, c] = max(Σ_{e with target p} dinv[src e] · ew e · dinv[p] · (x·W)[src e, c] + b[c], 0),  where the
  degree of a node is the sum of the weights of the messages it receives and dinv is 1/sqrt(degree) where the degree is
  positive, 0 elsewhere.  The reference forms the whole weight dinv[src e] · ew e · dinv[dst e] per message and sums the
  weighted source rows of x·W.  The kernel program scales row n of x·W by dinv[n] inside its first pipelined call, sums
  the source rows weighted by ew e alone, and multiplies row p of the sums by dinv[p] inside its second pipelined call,
  where it also adds the bias and cuts off at zero; it also cuts the degree off below at zero before the square root,
  which changes nothing.

  Over the extended reals the two agree for all inputs: dinv[p] is always a nonnegative real number, so it distributes
  over the sum of the messages of row p whatever they are; a message summed into row p has target p, so the factor the
  reference reads at the message's target is dinv[p]; and the remaining rearrangement of each product is commutativity
  and associativity.  A change of float format is the identity at this reading, and the matrix unit's product into a
  zero accumulator is the host's matrix product.

  The three runs: the word-level kernel program and its idealization by the generated frames; the idealized kernel
  program once more with its result array named (six segments folded over the launch memory); the reference by its
  generated run.  No rewrite separates the kernel program from its idealization.
-/
import proofs.«164977_j7000796693164_2_alg».proof.Defs
import proofs.«164977_j7000796693164_2_alg».proof.Proof.Gen.Kernel
import proofs.«164977_j7000796693164_2_alg».proof.Proof.Gen.Kernel.Skeleton
import proofs.«164977_j7000796693164_2_alg».proof.Proof.Gen.Kernel.Launch
import proofs.«164977_j7000796693164_2_alg».proof.Proof.Gen.Kernel.Points
import proofs.«164977_j7000796693164_2_alg».proof.Proof.Gen.Kernel.Frame
import proofs.«164977_j7000796693164_2_alg».proof.Proof.Gen.KernelIdeal
import proofs.«164977_j7000796693164_2_alg».proof.Proof.Gen.KernelIdeal.Skeleton
import proofs.«164977_j7000796693164_2_alg».proof.Proof.Gen.KernelIdeal.Launch
import proofs.«164977_j7000796693164_2_alg».proof.Proof.Gen.KernelIdeal.Points
import proofs.«164977_j7000796693164_2_alg».proof.Proof.Gen.KernelIdeal.Frame
import proofs.«164977_j7000796693164_2_alg».proof.Proof.Gen.ReferenceIdeal
import proofs.«164977_j7000796693164_2_alg».proof.Proof.Gen.Pre_finite_inputs
import proofs.«164977_j7000796693164_2_alg».proof.Proof.Gen.ReferenceIdeal.Run
import proofs.«164977_j7000796693164_2_alg».proof.Proof.Gen.ReferenceIdeal.Read
import proofs.«164977_j7000796693164_2_alg».proof.Proof.KernelRun
import proofs.«164977_j7000796693164_2_alg».proof.Proof.KernelValue
import proofs.«164977_j7000796693164_2_alg».proof.Proof.BridgeCore
import Idealize.ShloMosaic.Adequacy
import Idealize.ShloMosaic.Init

noncomputable section

namespace Cert.Proof

open Idealize.ShloMosaic Idealize.SL.Sem

/-- The word-level kernel program runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the same result array: the kernel
    program's one function of the arguments, which is the reference's. -/
theorem algebraic : Cert.algebraic_KernelIdeal_ReferenceIdeal := by
  intro m ρ m' ρ' _ hagree
  refine ⟨fun c => Cert.KernelIdeal.Out.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Value.result_eq m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v50_eq, (hagree c).1, (hagree c).2.1, (hagree c).2.2.1, (hagree c).2.2.2.1,
      (hagree c).2.2.2.2]
    exact (Cert.Bridge.kernelOut_eq _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
